-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S2x1600000 : Shape := ⟨2, ![2, 1600000]⟩
abbrev S1433x128 : Shape := ⟨2, ![1433, 128]⟩
abbrev S128 : Shape := ⟨1, ![128]⟩
abbrev S128x7 : Shape := ⟨2, ![128, 7]⟩
abbrev S7 : Shape := ⟨1, ![7]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x128 : S_.BroadcastsInDim S1433x128 (![] : Fin 0 → Fin S1433x128.rank)
  reducesTo_S1433x128_S_d0_1 : S1433x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S128x7 1) : IVec S_ 1 :=
  let main_c_5 : IVec S_ 1 := constantI S_ 1 1#1
  let main_v17 : IVec S_ 1 := (fun x v => Host.reduce IntOp.andi x v reducesTo_S128x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S50000x1433 .f32) (main_arg1 : IVec S2x1600000 32) (main_arg2 : FVec F S1433x128 .f32) (main_arg3 : FVec F S128 .f32) (main_arg4 : FVec F S128x7 .f32) (main_arg5 : FVec F S7 .f32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x128 .f32 := Host.absf main_arg2
  let main_cst_0 : FVec F S_ .f32 := constant S_ .f32 0x7F800000#32
  let main_v5 : FVec F S1433x128 .f32 := broadcastInDim S1433x128 ![] bcast_S_S1433x128 main_cst_0
  let main_v6 : IVec S1433x128 1 := cmpf .olt main_v4 main_v5
  let main_c_1 : IVec S_ 1 := constantI S_ 1 1#1
  let main_v7 : IVec S_ 1 := (fun x v => Host.reduce IntOp.andi x v reducesTo_S1433x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x7 .f32 := Host.absf main_arg4
  let main_cst_4 : FVec F S_ .f32 := constant S_ .f32 0x7F800000#32
  let main_v15 : FVec F S128x7 .f32 := broadcastInDim S128x7 ![] bcast_S_S128x7 main_cst_4
  let main_v16 : IVec S128x7 1 := cmpf .olt main_v14 main_v15
  fn_part1 (F := F) main_arg5 main_v13 main_v16
-- ==== Kernel.lean ====
abbrev S50000x1433 : Shape := ⟨2, ![50000, 1433]⟩
abbrev S2x1600000 : Shape := ⟨2, ![2, 1600000]⟩
abbrev S1433x128 : Shape := ⟨2, ![1433, 128]⟩
abbrev S128 : Shape := ⟨1, ![128]⟩
abbrev S128x7 : Shape := ⟨2, ![128, 7]⟩
abbrev S7 : Shape := ⟨1, ![7]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S2000x1433 : Shape := ⟨2, ![2000, 1433]⟩
abbrev S2000x128 : Shape := ⟨2, ![2000, 128]⟩
abbrev S1650000x128 : Shape := ⟨2, ![1650000, 128]⟩
abbrev S1x128 : Shape := ⟨2, ![1, 128]⟩
abbrev S50000x7 : Shape := ⟨2, ![50000, 7]⟩
abbrev S2000x7 : Shape := ⟨2, ![2000, 7]⟩
abbrev S1650000x7 : Shape := ⟨2, ![1650000, 7]⟩
abbrev S1x7 : Shape := ⟨2, ![1, 7]⟩

abbrev nBuf : Space → Nat
  | .hbm => 89
  | .vmem => 10
  | .smem => 0
  | _ => 0

abbrev bufTy : (tb : Table) → Fin (tcTables nBuf tb) → BufTy
  | .hbm, ⟨0, _⟩ => ⟨S50000x1433, .f32⟩
  | .hbm, ⟨1, _⟩ => ⟨S2x1600000, .i32⟩
  | .hbm, ⟨2, _⟩ => ⟨S1433x128, .f32⟩
  | .hbm, ⟨3, _⟩ => ⟨S128, .f32⟩
  | .hbm, ⟨4, _⟩ => ⟨S128x7, .f32⟩
  | .hbm, ⟨5, _⟩ => ⟨S7, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S1650000x1, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x128, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x7, .f32⟩
  | .hbm, ⟨70, _⟩ => ⟨S1650000x1, .f32⟩
  | .hbm, ⟨71, _⟩ => ⟨S_, .i32⟩
  | .hbm, ⟨72, _⟩ => ⟨S1650000, .i32⟩
  | .hbm, ⟨73, _⟩ => ⟨S1650000, .i1⟩
  | .hbm, ⟨74, _⟩ => ⟨S_, .i32⟩
  | .hbm, ⟨75, _⟩ => ⟨S1650000, .i32⟩
  | .hbm, ⟨76, _⟩ => ⟨S1650000, .i32⟩
  | .hbm, ⟨77, _⟩ => ⟨S1650000, .i32⟩
  | .hbm, ⟨78, _⟩ => ⟨S1650000x1, .i32⟩
  | .hbm, ⟨79, _⟩ => ⟨S1650000x7, .f32⟩
  | .hbm, ⟨80, _⟩ => ⟨S1650000x7, .f32⟩
  | .hbm, ⟨81, _⟩ => ⟨S1650000x7, .f32⟩
  | .hbm, ⟨82, _⟩ => ⟨S_, .f32⟩
  | .hbm, ⟨83, _⟩ => ⟨S50000x7, .f32⟩
  | .hbm, ⟨84, _⟩ => ⟨S1650000x1, .i32⟩
  | .hbm, ⟨85, _⟩ => ⟨S50000x7, .f32⟩
  | .hbm, ⟨86, _⟩ => ⟨S1x7, .f32⟩
  | .hbm, ⟨87, _⟩ => ⟨S50000x7, .f32⟩
  | .hbm, ⟨88, _⟩ => ⟨S50000x7, .f32⟩
  | .local _ .vmem, ⟨0, _⟩ => ⟨S2000x1433, .f32⟩
  | .local _ .vmem, ⟨1, _⟩ => ⟨S2000x1433, .f32⟩
  | .local _ .vmem, ⟨2, _⟩ => ⟨S1433x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x7, .f32⟩
  | .local _ .vmem, ⟨8, _⟩ => ⟨S2000x7, .f32⟩
  | .local _ .vmem, ⟨9, _⟩ => ⟨S2000x7, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x128_S1433x128_0_0 : ∀ a, (![0, 0] : Fin 2 → Nat) a + S1433x128.size a ≤ S1433x128.size a
  h_S1433x128 : 0 < S1433x128.numel
  inb_S2000x128_S2000x128_0_0 : ∀ a, (![0, 0] : Fin 2 → Nat) a + S2000x128.size a ≤ S2000x128.size a
  h_S2000x128 : 0 < S2000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x7_S128x7_0_0 : ∀ a, (![0, 0] : Fin 2 → Nat) a + S128x7.size a ≤ S128x7.size a
  h_S128x7 : 0 < S128x7.numel
  inb_S2000x7_S2000x7_0_0 : ∀ a, (![0, 0] : Fin 2 → Nat) a + S2000x7.size a ≤ S2000x7.size a
  h_S2000x7 : 0 < S2000x7.numel
  bcast_S1650000x1_S1650000x7_0_1 : S1650000x1.BroadcastsInDim S1650000x7 (![0, 1] : Fin 2 → Fin S1650000x7.rank)
  bcast_S_S50000x7 : S_.BroadcastsInDim S50000x7 (![] : Fin 0 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x1433_S1433x128_S2000x128_1_0_0_1_n_n_wf : DotDims.WF S2000x1433 S1433x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x7_S2000x7_1_0_0_1_n_n_wf : DotDims.WF S2000x128 S128x7 S2000x7 [1] [0] [0] [1] [] []
  gather_S50000x7_S1650000x1_S1650000x7_1_0_n_n_0_1_17_wf : GatherDims.WF S50000x7 S1650000x1 S1650000x7 [1] [0] [] [0] [] 1 ![1, 7]
  scatter_S50000x7_S1650000x1_S1650000x7_1_0_0_1_wf : ScatterDims.WF S50000x7 S1650000x1 S1650000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S50000x1433.size a
  hwx0_0 : ∀ i : grid0.Coords, EltTy.bits .f32 = 32 ∨ (Rect.block (s := S50000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x128.size a ≤ S1433x128.size a
  hwx0_1 : ∀ i : grid0.Coords, EltTy.bits .f32 = 32 ∨ (Rect.block (s := S1433x128) S1433x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x7.size a ≤ S128x7.size a
  hwx1_1 : ∀ i : grid1.Coords, EltTy.bits .f32 = 32 ∨ (Rect.block (s := S128x7) S128x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x7.size a ≤ S50000x7.size a
  hwx1_2 : ∀ i : grid1.Coords, EltTy.bits .f32 = 32 ∨ (Rect.block (s := S50000x7) S2000x7.size (cc1_transform_2 i) (hinb1_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x1433_S1433x128_S2000x128_1_0_0_1_n_n : DotDims S2000x1433 S1433x128 S2000x128 where
  lhsContracting := [1]
  rhsContracting := [0]
  lhsNonContracting := [0]
  rhsNonContracting := [1]
  lhsBatch := []
  rhsBatch := []
  wf := dot_S2000x1433_S1433x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x7_S2000x7_1_0_0_1_n_n : DotDims S2000x128 S128x7 S2000x7 where
  lhsContracting := [1]
  rhsContracting := [0]
  lhsNonContracting := [0]
  rhsNonContracting := [1]
  lhsBatch := []
  rhsBatch := []
  wf := dot_S2000x128_S128x7_S2000x7_1_0_0_1_n_n_wf
def gather_S50000x7_S1650000x1_S1650000x7_1_0_n_n_0_1_17 : GatherDims S50000x7 S1650000x1 S1650000x7 where
  offsetDims := [1]
  collapsedSliceDims := [0]
  operandBatchingDims := []
  startIndicesBatchingDims := []
  startIndexMap := [0]
  indexVectorDim := 1
  sliceSizes := ![1, 7]
  wf := gather_S50000x7_S1650000x1_S1650000x7_1_0_n_n_0_1_17_wf
def scatter_S50000x7_S1650000x1_S1650000x7_1_0_0_1 : ScatterDims S50000x7 S1650000x1 S1650000x7 where
  updateWindowDims := [1]
  insertedWindowDims := [0]
  scatterDimsToOperandDims := [0]
  indexVectorDim := 1
  wf := scatter_S50000x7_S1650000x1_S1650000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x1433 : Shape := ⟨2, ![50000, 1433]⟩
abbrev S2x1600000 : Shape := ⟨2, ![2, 1600000]⟩
abbrev S1433x128 : Shape := ⟨2, ![1433, 128]⟩
abbrev S128 : Shape := ⟨1, ![128]⟩
abbrev S128x7 : Shape := ⟨2, ![128, 7]⟩
abbrev S7 : Shape := ⟨1, ![7]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x7 : Shape := ⟨2, ![50000, 7]⟩
abbrev S1650000x7 : Shape := ⟨2, ![1650000, 7]⟩
abbrev S1x7 : Shape := ⟨2, ![1, 7]⟩

abbrev nBuf : Space → Nat
  | .hbm => 92
  | .vmem => 0
  | .smem => 0
  | _ => 0

abbrev bufTy : (tb : Table) → Fin (tcTables nBuf tb) → BufTy
  | .hbm, ⟨0, _⟩ => ⟨S50000x1433, .f32⟩
  | .hbm, ⟨1, _⟩ => ⟨S2x1600000, .i32⟩
  | .hbm, ⟨2, _⟩ => ⟨S1433x128, .f32⟩
  | .hbm, ⟨3, _⟩ => ⟨S128, .f32⟩
  | .hbm, ⟨4, _⟩ => ⟨S128x7, .f32⟩
  | .hbm, ⟨5, _⟩ => ⟨S7, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S1650000x1, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x128, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x7, .f32⟩
  | .hbm, ⟨73, _⟩ => ⟨S1650000x1, .f32⟩
  | .hbm, ⟨74, _⟩ => ⟨S_, .i32⟩
  | .hbm, ⟨75, _⟩ => ⟨S1650000, .i32⟩
  | .hbm, ⟨76, _⟩ => ⟨S1650000, .i1⟩
  | .hbm, ⟨77, _⟩ => ⟨S_, .i32⟩
  | .hbm, ⟨78, _⟩ => ⟨S1650000, .i32⟩
  | .hbm, ⟨79, _⟩ => ⟨S1650000, .i32⟩
  | .hbm, ⟨80, _⟩ => ⟨S1650000, .i32⟩
  | .hbm, ⟨81, _⟩ => ⟨S1650000x1, .i32⟩
  | .hbm, ⟨82, _⟩ => ⟨S1650000x7, .f32⟩
  | .hbm, ⟨83, _⟩ => ⟨S1650000x7, .f32⟩
  | .hbm, ⟨84, _⟩ => ⟨S1650000x7, .f32⟩
  | .hbm, ⟨85, _⟩ => ⟨S_, .f32⟩
  | .hbm, ⟨86, _⟩ => ⟨S50000x7, .f32⟩
  | .hbm, ⟨87, _⟩ => ⟨S1650000x1, .i32⟩
  | .hbm, ⟨88, _⟩ => ⟨S50000x7, .f32⟩
  | .hbm, ⟨89, _⟩ => ⟨S1x7, .f32⟩
  | .hbm, ⟨90, _⟩ => ⟨S50000x7, .f32⟩
  | .hbm, ⟨91, _⟩ => ⟨S50000x7, .f32⟩
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x7_0_1 : S1650000x1.BroadcastsInDim S1650000x7 (![0, 1] : Fin 2 → Fin S1650000x7.rank)
  bcast_S_S50000x7 : S_.BroadcastsInDim S50000x7 (![] : Fin 0 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x1433_S1433x128_S50000x128_1_0_0_1_n_n_wf : DotDims.WF S50000x1433 S1433x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x7_S50000x7_1_0_0_1_n_n_wf : DotDims.WF S50000x128 S128x7 S50000x7 [1] [0] [0] [1] [] []
  gather_S50000x7_S1650000x1_S1650000x7_1_0_n_n_0_1_17_wf : GatherDims.WF S50000x7 S1650000x1 S1650000x7 [1] [0] [] [0] [] 1 ![1, 7]
  scatter_S50000x7_S1650000x1_S1650000x7_1_0_0_1_wf : ScatterDims.WF S50000x7 S1650000x1 S1650000x7 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x1433_S1433x128_S50000x128_1_0_0_1_n_n : DotDims S50000x1433 S1433x128 S50000x128 where
  lhsContracting := [1]
  rhsContracting := [0]
  lhsNonContracting := [0]
  rhsNonContracting := [1]
  lhsBatch := []
  rhsBatch := []
  wf := dot_S50000x1433_S1433x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x7_S50000x7_1_0_0_1_n_n : DotDims S50000x128 S128x7 S50000x7 where
  lhsContracting := [1]
  rhsContracting := [0]
  lhsNonContracting := [0]
  rhsNonContracting := [1]
  lhsBatch := []
  rhsBatch := []
  wf := dot_S50000x128_S128x7_S50000x7_1_0_0_1_n_n_wf
def gather_S50000x7_S1650000x1_S1650000x7_1_0_n_n_0_1_17 : GatherDims S50000x7 S1650000x1 S1650000x7 where
  offsetDims := [1]
  collapsedSliceDims := [0]
  operandBatchingDims := []
  startIndicesBatchingDims := []
  startIndexMap := [0]
  indexVectorDim := 1
  sliceSizes := ![1, 7]
  wf := gather_S50000x7_S1650000x1_S1650000x7_1_0_n_n_0_1_17_wf
def scatter_S50000x7_S1650000x1_S1650000x7_1_0_0_1 : ScatterDims S50000x7 S1650000x1 S1650000x7 where
  updateWindowDims := [1]
  insertedWindowDims := [0]
  scatterDimsToOperandDims := [0]
  indexVectorDim := 1
  wf := scatter_S50000x7_S1650000x1_S1650000x7_1_0_0_1_wf

class Facts : Prop extends Facts₀ where

variable [Facts]
-- ==== Proof.KernelRun.lean ====
import proofs.«106938_j60370060312856_1_alg».proof.Proof.Gen.KernelIdeal.Frame

/-!
# The kernel program's run, with its result named

The program is host operations, a first tiled product (25 row blocks of 2000), host operations, a second tiled product,
host operations. Its buffers' contents at each boundary between these seven stretches are a fold from the launch
memory (`Gen.W0 … Gen.W7`): a stretch of host operations applies them in order, a tiled product leaves its arrays at
what its write-backs produce and every other buffer alone.

`run_result`: every weakly fair execution terminates, nothing faults, the result array ends at the last boundary's
contents `Gen.W7 … main_v65`, and the six argument arrays end as launched. It is the library's launch theorem for a
program cut into segments, applied to this program's segments; the last thread state holds every unscoped buffer at
`Gen.W7`, and the result's buffer is one of them.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result array at the last boundary's contents, the arguments as launched. -/
theorem run_result : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.Layers.lean ====
import proofs.«106938_j60370060312856_1_alg».proof.Proof.Gen.KernelIdeal
import Idealize.ShloMosaic.PureOps.Ideal

/-!
# The graph-convolution layer around a dense product

A graph on 50000 nodes is given by a list of 1600000 directed edges `e : [2, 1600000]` (row 0 the sources, row 1 the
targets); every node gets a self loop, so there are 1650000 (source, target) pairs: `src e`, `dst e`.

* `deg e` counts, per node, the pairs that end there (a scatter-add of ones into zeros);
* `dinv e` is `deg^(-1/2)` where the degree is positive (computed as `rsqrt (max deg 1e-12)`) and `0` elsewhere;
* `norm e`, one weight per pair, is `dinv[source] · dinv[target]` — an index is first brought into range the way
  `x[i]` does it for a negative `i` (`wrap`);
* a layer's aggregation of node features `h : [50000, D]` with bias `b : [D]`: pair `p` carries
  `norm[p] · h[source p]`, every node adds up what arrives at it, and the bias is added to every row —
  `aggregateWide` for `D = 128`, `aggregateNarrow` for `D = 7`;
* `rectify h` is the rectifier `max(h, 0)`, entry by entry.

Each is first given as a function of the vectors it is computed from (`degOf` of the targets, `dinvOf` of the
comparison, the reciprocal root and the zero, `normOf` of `dinv` and the two ends, `aggregateWideOf` /
`aggregateNarrowOf` of the features, the weights, the two ends and the bias), then composed over an edge list.
All of it at the extended reals, over the shapes and the records of dimension numbers of the printed kernel program.
-/

noncomputable section

namespace Cert.Gcn

open Idealize.ShloMosaic Cert.KernelIdeal Cert.KernelIdeal.Facts₀

/-- The edge list. -/
abbrev Edges : Type := (⟨S2x1600000, .i32⟩ : BufTy).Contents (Elt Ideal)
/-- One node per (source, target) pair: an end of every pair. -/
abbrev Ends : Type := (⟨S1650000, .i32⟩ : BufTy).Contents (Elt Ideal)
/-- One bit per node. -/
abbrev NodeBits : Type := (⟨S50000, .i1⟩ : BufTy).Contents (Elt Ideal)

/-- The sources: row 0 of the edge list, then every node once (the self loops). -/
def src (e : Edges) : Ends :=
  concatenate S1650000 0 [⟨S1600000, shapeCast _ (extractStridedSlice S1x1600000 ![0, 0] e slices_S2x1600000_S1x1600000_0_0) shapeCasts_S1x1600000_S1600000⟩, ⟨S50000, iotaInDim S50000 32 0⟩] concatenates_S1600000_S50000_S1650000_d0

/-- The targets: row 1 of the edge list, then every node once. -/
def dst (e : Edges) : Ends :=
  concatenate S1650000 0 [⟨S1600000, shapeCast _ (extractStridedSlice S1x1600000 ![1, 0] e slices_S2x1600000_S1x1600000_1_0) shapeCasts_S1x1600000_S1600000⟩, ⟨S50000, iotaInDim S50000 32 0⟩] concatenates_S1600000_S50000_S1650000_d0

/-- An index brought into range as indexing does it: a negative one has the axis' length 50000 added. -/
def wrap (i : Ends) : Ends :=
  select (cmpi .slt i (broadcastInDim S1650000 ![] bcast_S_S1650000 (constantI S_ 32 0#32)))
    (addi i (broadcastInDim S1650000 ![] bcast_S_S1650000 (constantI S_ 32 50000#32))) i

/-- An index vector as the one-column table of indices a gather or scatter takes. -/
def column (i : Ends) : (⟨S1650000x1, .i32⟩ : BufTy).Contents (Elt Ideal) :=
  broadcastInDim S1650000x1 ![0] bcast_S1650000_S1650000x1_0 i

/-- The number of pairs ending at each node, from the pairs' targets. -/
def degOf (t : Ends) : FVec Ideal S50000 .f32 :=
  Host.scatterAdd scatter_S50000_S1650000x1_S1650000_n_0_0_1
    (broadcastInDim S50000 ![] bcast_S_S50000 (constant (F := Ideal) S_ .f32 0x00000000#32))
    (column t)
    (broadcastInDim S1650000 ![] bcast_S_S1650000 (constant (F := Ideal) S_ .f32 0x3F800000#32))

/-- Where a degree is positive. -/
def positive (d : FVec Ideal S50000 .f32) : NodeBits :=
  cmpf (F := Ideal) .ogt d (broadcastInDim S50000 ![] bcast_S_S50000 (constant (F := Ideal) S_ .f32 0x00000000#32))

/-- The reciprocal square root of a degree kept away from zero. -/
def invSqrt (d : FVec Ideal S50000 .f32) : FVec Ideal S50000 .f32 :=
  Host.rsqrt (maximumf d (broadcastInDim S50000 ![] bcast_S_S50000 (constant (F := Ideal) S_ .f32 0x2B8CBCCC#32)))

/-- The reciprocal root where the bit is set, the given scalar elsewhere. -/
def dinvOf (pos : NodeBits) (r : FVec Ideal S50000 .f32) (z : FVec Ideal S_ .f32) : FVec Ideal S50000 .f32 :=
  select pos r (broadcastInDim S50000 ![] bcast_S_S50000 (id z))

/-- The weight of each pair from the per-node factor and the pairs' two ends. -/
def normOf (dv : FVec Ideal S50000 .f32) (s t : Ends) : FVec Ideal S1650000 .f32 :=
  mulf (Host.gather gather_S50000_S1650000x1_S1650000_n_0_n_n_0_1_1 dv (column (wrap s)))
    (Host.gather gather_S50000_S1650000x1_S1650000_n_0_n_n_0_1_1 dv (column (wrap t)))

/-- A layer's aggregation at width 128, from the features, the pairs' weights, their two ends and the bias: every
    node adds up `weight[p] · h[source p]` over the pairs `p` that end at it; then the bias is added to every row. -/
def aggregateWideOf (h : FVec Ideal S50000x128 .f32) (nrm : FVec Ideal S1650000 .f32) (s t : Ends) (b : FVec Ideal S128 .f32) :
    FVec Ideal S50000x128 .f32 :=
  addf
    (Host.scatterAdd scatter_S50000x128_S1650000x1_S1650000x128_1_0_0_1
      (broadcastInDim S50000x128 ![] bcast_S_S50000x128 (constant (F := Ideal) S_ .f32 0x00000000#32))
      (column t)
      (mulf (broadcastInDim S1650000x128 ![0, 1] bcast_S1650000x1_S1650000x128_0_1
          (broadcastInDim S1650000x1 ![0] bcast_S1650000_S1650000x1_0 nrm))
        (Host.gather gather_S50000x128_S1650000x1_S1650000x128_1_0_n_n_0_1_1128 h (column (wrap s)))))
    (broadcastInDim S50000x128 ![0, 1] bcast_S1x128_S50000x128_0_1 (broadcastInDim S1x128 ![1] bcast_S128_S1x128_1 b))

/-- The same at width 7. -/
def aggregateNarrowOf (h : FVec Ideal S50000x7 .f32) (nrm : FVec Ideal S1650000 .f32) (s t : Ends) (b : FVec Ideal S7 .f32) :
    FVec Ideal S50000x7 .f32 :=
  addf
    (Host.scatterAdd scatter_S50000x7_S1650000x1_S1650000x7_1_0_0_1
      (broadcastInDim S50000x7 ![] bcast_S_S50000x7 (constant (F := Ideal) S_ .f32 0x00000000#32))
      (column t)
      (mulf (broadcastInDim S1650000x7 ![0, 1] bcast_S1650000x1_S1650000x7_0_1
          (broadcastInDim S1650000x1 ![0] bcast_S1650000_S1650000x1_0 nrm))
        (Host.gather gather_S50000x7_S1650000x1_S1650000x7_1_0_n_n_0_1_17 h (column (wrap s)))))
    (broadcastInDim S50000x7 ![0, 1] bcast_S1x7_S50000x7_0_1 (broadcastInDim S1x7 ![1] bcast_S7_S1x7_1 b))

/-- The number of pairs ending at each node. -/
def deg (e : Edges) : FVec Ideal S50000 .f32 := degOf (dst e)

/-- `deg^(-1/2)` where the degree is positive, `0` elsewhere. -/
def dinv (e : Edges) : FVec Ideal S50000 .f32 :=
  dinvOf (positive (deg e)) (invSqrt (deg e)) (constant (F := Ideal) S_ .f32 0x00000000#32)

/-- The weight of each pair: `dinv` at its source times `dinv` at its target. -/
def norm (e : Edges) : FVec Ideal S1650000 .f32 := normOf (dinv e) (src e) (dst e)

/-- A layer's aggregation over the graph at width 128. -/
def aggregateWide (h : FVec Ideal S50000x128 .f32) (e : Edges) (b : FVec Ideal S128 .f32) : FVec Ideal S50000x128 .f32 :=
  aggregateWideOf h (norm e) (src e) (dst e) b

/-- A layer's aggregation over the graph at width 7. -/
def aggregateNarrow (h : FVec Ideal S50000x7 .f32) (e : Edges) (b : FVec Ideal S7 .f32) : FVec Ideal S50000x7 .f32 :=
  aggregateNarrowOf h (norm e) (src e) (dst e) b

/-- The rectifier, entry by entry: the larger of the entry and zero. -/
def rectify (h : FVec Ideal S50000x128 .f32) : FVec Ideal S50000x128 .f32 :=
  maximumf h (broadcastInDim S50000x128 ![] bcast_S_S50000x128 (constant (F := Ideal) S_ .f32 0x00000000#32))

/-- At an entry it is `max` with the zero word's value. -/
theorem rectify_apply (h : FVec Ideal S50000x128 .f32) (i : S50000x128.Idx) :
    rectify h i = max (h i) (Ideal.ofBits .f32 0x00000000#32) := rfl

end Cert.Gcn

end
-- ==== Proof.Stretches.lean ====
import proofs.«106938_j60370060312856_1_alg».proof.Proof.Gen.KernelIdeal.Launch
import proofs.«106938_j60370060312856_1_alg».proof.Proof.Layers
import Idealize.ShloMosaic.Lib.StableHlo.Run

/-!
# Each stretch of host operations as a function of the buffers it reads

The kernel program's host operations come in five stretches: 21 operations on the edge list (the pairs' ends, the
degree's comparison and reciprocal root), the 3 operations of the selection between them, 19 that gather the per-node
factor at both ends of every pair and multiply, and — after each tiled product — 19 that aggregate its result over
the graph and add the bias. Started from ANY buffer contents `X`, a stretch leaves each buffer it writes at the layer
function (`Gcn.src`, `Gcn.dinvOf`, `Gcn.normOf`, `Gcn.aggregateWideOf`, …) of the contents it read, and every buffer it
does not write as it was: by applying the operations in order.
-/

set_option maxRecDepth 16384

noncomputable section

namespace Cert.KernelIdeal.Stretches

open Cert.KernelIdeal Cert.KernelIdeal.Gen Cert.Gcn
open Idealize.ShloMosaic Idealize.ShloMosaic.TcCoe Idealize.SL.Sem Idealize.ShloMosaic.StableHlo

variable (X : Valuation τ sig (Elt Ideal))

/-! ## The edge list's stretch -/

/-- The pairs' sources. -/
theorem ends_src : StableHlo.after (hostOps0 (F := Ideal)) X (Proc.devRef .tc main_v3) = src (X (Proc.devRef .tc main_arg1)) := by
  after_results_simp <;> rfl

/-- The pairs' targets. -/
theorem ends_dst : StableHlo.after (hostOps0 (F := Ideal)) X (Proc.devRef .tc main_v6) = dst (X (Proc.devRef .tc main_arg1)) := by
  after_results_simp <;> rfl

/-- Where the degree is positive. -/
theorem ends_positive : StableHlo.after (hostOps0 (F := Ideal)) X (Proc.devRef .tc main_v12) = positive (degOf (dst (X (Proc.devRef .tc main_arg1)))) := by
  after_results_simp <;> rfl

/-- The degree's reciprocal root. -/
theorem ends_invSqrt : StableHlo.after (hostOps0 (F := Ideal)) X (Proc.devRef .tc main_v15) = invSqrt (degOf (dst (X (Proc.devRef .tc main_arg1)))) := by
  after_results_simp <;> rfl

/-- The scalar zero the selection falls back to. -/
theorem ends_zero : StableHlo.after (hostOps0 (F := Ideal)) X (Proc.devRef .tc main_cst_3) = constant (F := Ideal) S_ .f32 0x00000000#32 := by
  after_results_simp <;> rfl

theorem ends_keeps_arg0 : StableHlo.after (hostOps0 (F := Ideal)) X (Proc.devRef .tc main_arg0) = (X (Proc.devRef .tc main_arg0)) := by
  after_results_simp <;> rfl
theorem ends_keeps_arg2 : StableHlo.after (hostOps0 (F := Ideal)) X (Proc.devRef .tc main_arg2) = (X (Proc.devRef .tc main_arg2)) := by
  after_results_simp <;> rfl
theorem ends_keeps_arg3 : StableHlo.after (hostOps0 (F := Ideal)) X (Proc.devRef .tc main_arg3) = (X (Proc.devRef .tc main_arg3)) := by
  after_results_simp <;> rfl
theorem ends_keeps_arg4 : StableHlo.after (hostOps0 (F := Ideal)) X (Proc.devRef .tc main_arg4) = (X (Proc.devRef .tc main_arg4)) := by
  after_results_simp <;> rfl
theorem ends_keeps_arg5 : StableHlo.after (hostOps0 (F := Ideal)) X (Proc.devRef .tc main_arg5) = (X (Proc.devRef .tc main_arg5)) := by
  after_results_simp <;> rfl

/-! ## The selection -/

/-- The per-node factor. -/
theorem select_dinv : StableHlo.after (hostOps0_1 (F := Ideal)) X (Proc.devRef .tc main_v16) = dinvOf (X (Proc.devRef .tc main_v12)) (X (Proc.devRef .tc main_v15)) (X (Proc.devRef .tc main_cst_3)) := by
  after_results_simp <;> rfl

theorem select_keeps_v3 : StableHlo.after (hostOps0_1 (F := Ideal)) X (Proc.devRef .tc main_v3) = (X (Proc.devRef .tc main_v3)) := by
  after_results_simp <;> rfl
theorem select_keeps_v6 : StableHlo.after (hostOps0_1 (F := Ideal)) X (Proc.devRef .tc main_v6) = (X (Proc.devRef .tc main_v6)) := by
  after_results_simp <;> rfl
theorem select_keeps_arg0 : StableHlo.after (hostOps0_1 (F := Ideal)) X (Proc.devRef .tc main_arg0) = (X (Proc.devRef .tc main_arg0)) := by
  after_results_simp <;> rfl
theorem select_keeps_arg2 : StableHlo.after (hostOps0_1 (F := Ideal)) X (Proc.devRef .tc main_arg2) = (X (Proc.devRef .tc main_arg2)) := by
  after_results_simp <;> rfl
theorem select_keeps_arg3 : StableHlo.after (hostOps0_1 (F := Ideal)) X (Proc.devRef .tc main_arg3) = (X (Proc.devRef .tc main_arg3)) := by
  after_results_simp <;> rfl
theorem select_keeps_arg4 : StableHlo.after (hostOps0_1 (F := Ideal)) X (Proc.devRef .tc main_arg4) = (X (Proc.devRef .tc main_arg4)) := by
  after_results_simp <;> rfl
theorem select_keeps_arg5 : StableHlo.after (hostOps0_1 (F := Ideal)) X (Proc.devRef .tc main_arg5) = (X (Proc.devRef .tc main_arg5)) := by
  after_results_simp <;> rfl

/-! ## The pairs' weights -/

/-- The weight of every pair. -/
theorem weights_norm : StableHlo.after (hostOps0_2 (F := Ideal)) X (Proc.devRef .tc main_v31) = normOf (X (Proc.devRef .tc main_v16)) (X (Proc.devRef .tc main_v3)) (X (Proc.devRef .tc main_v6)) := by
  after_results_simp <;> rfl

theorem weights_keeps_v3 : StableHlo.after (hostOps0_2 (F := Ideal)) X (Proc.devRef .tc main_v3) = (X (Proc.devRef .tc main_v3)) := by
  after_results_simp <;> rfl
theorem weights_keeps_v6 : StableHlo.after (hostOps0_2 (F := Ideal)) X (Proc.devRef .tc main_v6) = (X (Proc.devRef .tc main_v6)) := by
  after_results_simp <;> rfl
theorem weights_keeps_arg0 : StableHlo.after (hostOps0_2 (F := Ideal)) X (Proc.devRef .tc main_arg0) = (X (Proc.devRef .tc main_arg0)) := by
  after_results_simp <;> rfl
theorem weights_keeps_arg2 : StableHlo.after (hostOps0_2 (F := Ideal)) X (Proc.devRef .tc main_arg2) = (X (Proc.devRef .tc main_arg2)) := by
  after_results_simp <;> rfl
theorem weights_keeps_arg3 : StableHlo.after (hostOps0_2 (F := Ideal)) X (Proc.devRef .tc main_arg3) = (X (Proc.devRef .tc main_arg3)) := by
  after_results_simp <;> rfl
theorem weights_keeps_arg4 : StableHlo.after (hostOps0_2 (F := Ideal)) X (Proc.devRef .tc main_arg4) = (X (Proc.devRef .tc main_arg4)) := by
  after_results_simp <;> rfl
theorem weights_keeps_arg5 : StableHlo.after (hostOps0_2 (F := Ideal)) X (Proc.devRef .tc main_arg5) = (X (Proc.devRef .tc main_arg5)) := by
  after_results_simp <;> rfl

/-! ## The aggregation after the first product -/

/-- The hidden features. -/
theorem wide_hidden : StableHlo.after (hostOps1 (F := Ideal)) X (Proc.devRef .tc main_v48) = aggregateWideOf (X (Proc.devRef .tc main_v32)) (X (Proc.devRef .tc main_v31)) (X (Proc.devRef .tc main_v3)) (X (Proc.devRef .tc main_v6)) (X (Proc.devRef .tc main_arg3)) := by
  after_results_simp <;> rfl

theorem wide_keeps_v3 : StableHlo.after (hostOps1 (F := Ideal)) X (Proc.devRef .tc main_v3) = (X (Proc.devRef .tc main_v3)) := by
  after_results_simp <;> rfl
theorem wide_keeps_v6 : StableHlo.after (hostOps1 (F := Ideal)) X (Proc.devRef .tc main_v6) = (X (Proc.devRef .tc main_v6)) := by
  after_results_simp <;> rfl
theorem wide_keeps_v31 : StableHlo.after (hostOps1 (F := Ideal)) X (Proc.devRef .tc main_v31) = (X (Proc.devRef .tc main_v31)) := by
  after_results_simp <;> rfl
theorem wide_keeps_arg4 : StableHlo.after (hostOps1 (F := Ideal)) X (Proc.devRef .tc main_arg4) = (X (Proc.devRef .tc main_arg4)) := by
  after_results_simp <;> rfl
theorem wide_keeps_arg5 : StableHlo.after (hostOps1 (F := Ideal)) X (Proc.devRef .tc main_arg5) = (X (Proc.devRef .tc main_arg5)) := by
  after_results_simp <;> rfl

/-! ## The aggregation after the second product -/

/-- The program's result. -/
theorem narrow_out : StableHlo.after (hostOps2 (F := Ideal)) X (Proc.devRef .tc main_v65) = aggregateNarrowOf (X (Proc.devRef .tc main_v49)) (X (Proc.devRef .tc main_v31)) (X (Proc.devRef .tc main_v3)) (X (Proc.devRef .tc main_v6)) (X (Proc.devRef .tc main_arg5)) := by
  after_results_simp <;> rfl

end Cert.KernelIdeal.Stretches

end
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.LibSlabProducts.lean ====
import proofs.«106938_j60370060312856_1_alg».proof.Proof.LibPlainMatmul
import Idealize.ShloMosaic.Lib.ValueLayout
import Idealize.ShloMosaic.Lib.Pipeline.Value

/-!
# Products with one slab of a stack, read at an index

For layers of the form `Σₛ hₛ · W[s]`, where `W` is an `[n, K, D]` stack of weight matrices:

* `dotGeneral_plain_apply` — the host's whole product `[M, K] · [K, N]` (no batch axis, contracting the left operand's
  axis 1 with the right operand's axis 0), over the extended reals, at `(p, q)`, is `Σₖ l[p, k] · r[k, q]`: the host's
  product and the matrix unit's product into a zero accumulator are the same sum over the contraction's index type,
  and the latter is the plain sum.
* `wslice_apply` — slice `s` of an `[n, K, D]` stack (a unit-stride slice with offsets `(s, 0, 0)`, then the leading
  unit axis dropped), at `(k, j)`, is the stack's `(s, k, j)`.
* `ld_slab` — the `[1, a, b]` piece at offsets `(s, 0, 0)` of an `[n, a, b]` block, loaded through its rectangle, holds
  at `(0, i, j)` the block's `(s, i, j)`.
-/

noncomputable section

open scoped BigOperators

namespace Idealize.ShloMosaic.SlabProducts

open Idealize.ShloMosaic Idealize.ShloMosaic.ValueIdx

/-- The host's whole product `[M, K] · [K, N]` at `(p, q)`, over the extended reals: the plain sum over the `K` shared
    coordinates, for any record of dimension numbers whose fields are those of a plain product, any precision and any
    schedule key. -/
theorem dotGeneral_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) :=
  (Ideal.dotGeneral_apply d prec sched l r (ix2 p q)).trans
    ((Ideal.matmul_constant_zero_apply d prec l r (ix2 p q)).symm.trans
      (PlainMatmul.matmul_plain_apply d hlc hrc hln hrn hlb hrb prec l r p q))

/-- Slice `s` of an `[n, K, D]` stack, as a `[K, D]` matrix, at `(k, j)`. -/
theorem wslice_apply {α : Type} {n K D : Nat} (W : (⟨3, ![n, K, D]⟩ : Shape).Idx → α) (s : Fin n)
    (hs : (⟨3, ![n, K, D]⟩ : Shape).Slices ![s.val, 0, 0] ⟨3, ![1, K, D]⟩)
    (hc : (⟨3, ![1, K, D]⟩ : Shape).ShapeCasts ⟨2, ![K, D]⟩) (k : Fin K) (j : Fin D) :
    shapeCast ⟨2, ![K, D]⟩ (extractStridedSlice ⟨3, ![1, K, D]⟩ ![s.val, 0, 0] W hs) hc (ix2 k j) = W (ix3 s k j) := by
  rw [shapeCast_1ab_ab_apply]
  refine extractStridedSlice_apply _ W hs _ (ix3 s k j) fun a => ?_
  match a with
  | ⟨0, _⟩ => show s.val = s.val + 0; omega
  | ⟨1, _⟩ => show k.val = 0 + k.val; omega
  | ⟨2, _⟩ => show j.val = 0 + j.val; omega

/-- Slab `s` of an `[n, a, b]` block, loaded as a `[1, a, b]` piece, holds at `(0, i, j)` the block's `(s, i, j)`. -/
theorem ld_slab {Val : EltTy → Type} {e : EltTy} {n a b : Nat} (X : (⟨3, ![n, a, b]⟩ : Shape).Idx → Val e) (s : Fin n)
    (inb : ∀ ax, (![s.val, 0, 0] : Fin 3 → Nat) ax + (![1, a, b] : Fin 3 → Nat) ax ≤ (![n, a, b] : Fin 3 → Nat) ax)
    (i : Fin a) (j : Fin b) :
    View.ld X (Rect.unit (s := ⟨3, ![n, a, b]⟩) ![s.val, 0, 0] ![1, a, b] inb) (ix3 (0 : Fin 1) i j) = X (ix3 s i j) := by
  refine congrArg X (funext fun ax => Fin.ext ?_)
  match ax with
  | ⟨0, _⟩ => show s.val + 1 * 0 = s.val; omega
  | ⟨1, _⟩ => show 0 + 1 * i.val = i.val; omega
  | ⟨2, _⟩ => show 0 + 1 * j.val = j.val; omega

end Idealize.ShloMosaic.SlabProducts

end
-- ==== Proof.LibMatProd.lean ====
import proofs.«106938_j60370060312856_1_alg».proof.Proof.LibSlabProducts

/-!
# The product of two matrices as one function of the index

`matProd x w` is the matrix product of `x : [M, K]` and `w : [K, N]` over the extended reals, as a function of the
index of `[M, N]`: at `(p, q)` it is `∑ k, x[p, k] · w[k, q]`.

Both ways a program computes a plain product — the host's whole `dot_general` (contracting the left operand's axis 1
with the right operand's axis 0, no batch axis) and the matrix unit's product into a zero accumulator — ARE this
function, for any record of dimension numbers with the fields of a plain product: `dotGeneral_eq_matProd`,
`matmul_eq_matProd`. A change of float format of an operand does not show: over the extended reals it is the identity.

The product of a block of rows with the right operand is that block of rows of the product: `matProd_rows`.
-/

noncomputable section

open scoped BigOperators

namespace Idealize.ShloMosaic.MatProd

open Idealize.ShloMosaic Idealize.ShloMosaic.ValueIdx

/-- The product of `x : [M, K]` and `w : [K, N]` over the extended reals. -/
def matProd {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- At `(p, q)` it is the sum over the shared coordinate. -/
theorem matProd_apply {M K N : Nat} (x : (⟨2, ![M, K]⟩ : Shape).Idx → EReal) (w : (⟨2, ![K, N]⟩ : Shape).Idx → EReal)
    (p : Fin M) (q : Fin N) : matProd x w (ix2 p q) = ∑ k : Fin K, x (ix2 p k) * w (ix2 k q) := rfl

/-- The host's whole product is `matProd`. -/
theorem dotGeneral_eq_matProd {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂) :
    FloatOps.dotGeneral d prec sched l r = matProd l r := by
  funext i
  obtain ⟨p, q, rfl⟩ : ∃ (p : Fin M) (q : Fin N), i = ix2 p q := ⟨i 0, i 1, eq_ix2 i⟩
  exact SlabProducts.dotGeneral_plain_apply d hlc hrc hln hrn hlb hrb prec sched l r p q

/-- The matrix unit's product into the zero accumulator is `matProd`. -/
theorem matmul_eq_matProd {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) :
    FloatOps.matmul d prec l r (constant ⟨2, ![M, N]⟩ .f32 0x00000000#32) = matProd l r := by
  funext i
  obtain ⟨p, q, rfl⟩ : ∃ (p : Fin M) (q : Fin N), i = ix2 p q := ⟨i 0, i 1, eq_ix2 i⟩
  exact PlainMatmul.matmul_plain_apply d hlc hrc hln hrn hlb hrb prec l r p q

/-- Rows `b·R … b·R + R − 1` of the product are the product of those rows of the left operand with the right operand:
    if block `xb : [R, K]` holds row `b·R + p` of `x` at its row `p`, and `wb` holds `w`, then `matProd xb wb` at
    `(p, q)` is `matProd x w` at `(b·R + p, q)`. -/
theorem matProd_rows {M R K N : Nat} (x : (⟨2, ![M, K]⟩ : Shape).Idx → EReal) (xb : (⟨2, ![R, K]⟩ : Shape).Idx → EReal)
    (w wb : (⟨2, ![K, N]⟩ : Shape).Idx → EReal) (b : Nat)
    (hrows : ∀ (p : Fin R) (r : Fin M) (k : Fin K), r.val = b * R + p.val → xb (ix2 p k) = x (ix2 r k))
    (hw : ∀ (k : Fin K) (q : Fin N), wb (ix2 k q) = w (ix2 k q))
    (j : (⟨2, ![R, N]⟩ : Shape).Idx) (i : (⟨2, ![M, N]⟩ : Shape).Idx)
    (h0 : (i 0).val = b * R + (j 0).val) (h1 : (i 1).val = (j 1).val) :
    matProd xb wb j = matProd x w i := by
  obtain ⟨p, q, rfl⟩ : ∃ (p : Fin R) (q : Fin N), j = ix2 p q := ⟨j 0, j 1, eq_ix2 j⟩
  obtain ⟨r, q', rfl⟩ : ∃ (r : Fin M) (q' : Fin N), i = ix2 r q' := ⟨i 0, i 1, eq_ix2 i⟩
  have hq : q' = q := Fin.ext h1
  subst hq
  show ∑ k : Fin K, xb (ix2 p k) * wb (ix2 k q') = ∑ k : Fin K, x (ix2 r k) * w (ix2 k q')
  exact Finset.sum_congr rfl fun k _ => by rw [hrows p r k h0, hw k q']

end Idealize.ShloMosaic.MatProd

end
-- ==== Proof.Region0.lean ====
import proofs.«106938_j60370060312856_1_alg».proof.Proof.Gen.KernelIdeal.Frame
import proofs.«106938_j60370060312856_1_alg».proof.Proof.LibMatProd
import Idealize.ShloMosaic.Lib.Pipeline.Value

/-!
# The first tiled product is the whole product

The first region runs over 25 grid points. At point `t` it loads rows `2000·t … 2000·t + 1999` of the left array
`[50000, 1433]` and the whole right array `[1433, 128]`, multiplies them into a zero accumulator, and stores the
`[2000, 128]` result as rows `2000·t …` of the output array. A change of float format is the identity over the extended
reals, so what it stores is the plain product of the two blocks (`stored_eq`); that is the same rows of the product
of the whole arrays (`flushed_eq`); the 25 blocks cover every row (`cover`); so the output array ends holding the
product of the two arrays as the region found them (`value`) — whatever those contents `V` are.
-/

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.MatProd

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores is the product of the two blocks it loaded. -/
theorem stored_eq (x0 : Vec Ideal S2000x1433 .f32) (x1 : Vec Ideal S1433x128 .f32) :
    k0_pay1 (F := Ideal) x0 x1 = matProd x0 x1 := by
  unfold k0_pay1
  exact matmul_eq_matProd dot_S2000x1433_S1433x128_S2000x128_1_0_0_1_n_n rfl rfl rfl rfl rfl rfl none
    (truncf .bf16 x0 Facts₀.bitsLt_bf16_f32) (truncf .bf16 x1 Facts₀.bitsLt_bf16_f32)

/-- Where each window's block sits at point `t`: the left operand's and the output's at row block `t`, the right
    operand's at the origin (decided over the 25 points). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` holds rows `2000·t …` of the left array. -/
theorem left_rows (c : Dev nD) (t : Fin cfg0.N) (p : Fin 2000) (r : Fin 50000) (k : Fin 1433) (hr : r.val = t.val * 2000 + p.val) :
    (iblk0 V c 0 t : S2000x1433.Idx → EReal) (ix2 p k) = (V c main_arg0 : S50000x1433.Idx → EReal) (ix2 r k) := by
  obtain ⟨e00, e01, -, -, -, -⟩ := index_facts t
  unfold iblk0
  rw [View.read_apply]
  show V c main_arg0 _ = V c main_arg0 _
  congr 1
  funext a
  apply Fin.ext
  match a with
  | ⟨0, _⟩ => show win0_0.index t (0 : Fin 2) * 2000 + 1 * p.val = r.val; omega
  | ⟨1, _⟩ => show win0_0.index t (1 : Fin 2) * 1433 + 1 * k.val = k.val; omega

/-- The right operand's block at any point is the right array. -/
theorem right_whole (c : Dev nD) (t : Fin cfg0.N) (k : Fin 1433) (q : Fin 128) :
    (iblk0 V c 1 t : S1433x128.Idx → EReal) (ix2 k q) = (V c main_arg2 : S1433x128.Idx → EReal) (ix2 k q) := by
  obtain ⟨-, -, e10, e11, -, -⟩ := index_facts t
  unfold iblk0
  rw [View.read_apply]
  show V c main_arg2 _ = V c main_arg2 _
  congr 1
  funext a
  apply Fin.ext
  match a with
  | ⟨0, _⟩ => show win0_1.index t (0 : Fin 2) * 1433 + 1 * k.val = k.val; omega
  | ⟨1, _⟩ => show win0_1.index t (1 : Fin 2) * 128 + 1 * q.val = q.val; omega

/-- What point `t` writes back is its block of the product of the two arrays. -/
theorem flushed_eq (c : Dev nD) (t : Fin cfg0.N) :
    (dat0 V c).flushed 2 t = ((cfg0.win 2).blk t).view.read (Elt Ideal)
      (matProd (V c main_arg0 : S50000x1433.Idx → EReal) (V c main_arg2 : S1433x128.Idx → EReal)) := by
  show (cfg0.win 2).cut (grid0.coords t) ((dat0 V c).after 2 t) = _
  rw [after0_2]
  unfold out0_2
  rw [View.canon_unit_zero zero_offsets]
  simp only [View.ld_unit_zero (S := S2000x1433) zero_offsets, View.ld_unit_zero (S := S1433x128) zero_offsets]
  rw [stored_eq]
  obtain ⟨-, -, -, -, e20, e21⟩ := index_facts t
  funext j
  show matProd (iblk0 V c 0 t : S2000x1433.Idx → EReal) (iblk0 V c 1 t : S1433x128.Idx → EReal) j
    = matProd (V c main_arg0 : S50000x1433.Idx → EReal) (V c main_arg2 : S1433x128.Idx → EReal) (((cfg0.win 2).blk t).view.emb j)
  refine matProd_rows (M := 50000) (R := 2000) (K := 1433) (N := 128) (V c main_arg0 : S50000x1433.Idx → EReal)
    (iblk0 V c 0 t : S2000x1433.Idx → EReal) (V c main_arg2 : S1433x128.Idx → EReal) (iblk0 V c 1 t : S1433x128.Idx → EReal) t.val
    (fun p r k hr => left_rows V c t p r k hr) (fun k q => right_whole V c t k q) j (((cfg0.win 2).blk t).view.emb j) ?_ ?_
  · show win0_2.index t (0 : Fin 2) * 2000 + 1 * (j 0).val = t.val * 2000 + (j 0).val; omega
  · show win0_2.index t (1 : Fin 2) * 128 + 1 * (j 1).val = (j 1).val; omega

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Row `r` of the output array is written by point `r / 2000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, e20, e21⟩ := index_facts ⟨(i 0).val / 2000, hlt⟩
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, hlt⟩ (1 : Fin 2) * 128 ≤ (i 1).val ∧ (i 1).val < win0_2.index ⟨(i 0).val / 2000, hlt⟩ (1 : Fin 2) * 128 + 128
    rw [e21]; omega

/-- The output array after the region: the product of the two arrays as the region found them. -/
theorem value (c : Dev nD) :
    (dat0 V c).arrAt 2 cfg0.N = matProd (V c main_arg0 : S50000x1433.Idx → EReal) (V c main_arg2 : S1433x128.Idx → EReal) :=
  (dat0 V c).arrAt_eq_of_cover 2 (matProd (V c main_arg0 : S50000x1433.Idx → EReal) (V c main_arg2 : S1433x128.Idx → EReal))
    (fun t _ => flushed_eq V c t) (cover)

end Cert.KernelIdeal.Region0

end
-- ==== Proof.Region1.lean ====
import proofs.«106938_j60370060312856_1_alg».proof.Proof.Gen.KernelIdeal.Frame
import proofs.«106938_j60370060312856_1_alg».proof.Proof.LibMatProd
import proofs.«106938_j60370060312856_1_alg».proof.Proof.Layers
import Idealize.ShloMosaic.Lib.Pipeline.Value

/-!
# The second tiled product is the whole product of the rectified features

The second region also runs over 25 grid points. At point `t` it loads rows `2000·t … 2000·t + 1999` of the hidden
features `[50000, 128]` and the whole weight matrix `[128, 7]`, replaces every loaded feature by the larger of itself
and zero, multiplies into a zero accumulator, and stores the `[2000, 7]` result as rows `2000·t …` of the output.
The rectifier acts entry by entry, so rectifying a block of rows is taking that block of the rectified array: what
point `t` writes is its rows of `matProd (rectify h) w` (`flushed_eq`), the blocks cover the output (`cover`), and the
output array ends holding that product of the arrays as the region found them (`value`).
-/

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.MatProd

variable (V : (c : Dev nD) → (b : Ref sig .tc) → Buf (Elt Ideal) ((c : Thread nD τ).loc b))

theorem zero_offsets : (![0, 0] : Fin 2 → Nat) = fun _ => 0 := funext fun a => by fin_cases a <;> rfl

/-- A block with every entry replaced by the larger of itself and zero. -/
def rectifyBlock (x : S2000x128.Idx → EReal) : S2000x128.Idx → EReal :=
  fun j => max (x j) (Ideal.ofBits .f32 0x00000000#32)

/-- What the body stores is the product of its rectified left block with its right block. -/
theorem stored_eq (x0 : Vec Ideal S2000x128 .f32) (x5 : Vec Ideal S128x7 .f32) :
    k1_pay1 (F := Ideal) x0 x5 = matProd (rectifyBlock x0) x5 := by
  have e : shapeCast S2000x128 x0 Facts₀.shapeCasts_S2000x128_S2000x128 = x0 := shapeCast_self x0 _
  unfold k1_pay1
  refine (matmul_eq_matProd dot_S2000x128_S128x7_S2000x7_1_0_0_1_n_n rfl rfl rfl rfl rfl rfl none _ _).trans ?_
  rw [e]
  rfl

/-- Where each window's block sits at point `t` (decided over the 25 points). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` holds rows `2000·t …` of the hidden features. -/
theorem left_rows (c : Dev nD) (t : Fin cfg1.N) (p : Fin 2000) (r : Fin 50000) (k : Fin 128) (hr : r.val = t.val * 2000 + p.val) :
    (iblk1 V c 0 t : S2000x128.Idx → EReal) (ix2 p k) = (V c main_v48 : S50000x128.Idx → EReal) (ix2 r k) := by
  obtain ⟨e00, e01, -, -, -, -⟩ := index_facts t
  unfold iblk1
  rw [View.read_apply]
  show V c main_v48 _ = V c main_v48 _
  congr 1
  funext a
  apply Fin.ext
  match a with
  | ⟨0, _⟩ => show win1_0.index t (0 : Fin 2) * 2000 + 1 * p.val = r.val; omega
  | ⟨1, _⟩ => show win1_0.index t (1 : Fin 2) * 128 + 1 * k.val = k.val; omega

/-- The right operand's block at any point is the weight matrix. -/
theorem right_whole (c : Dev nD) (t : Fin cfg1.N) (k : Fin 128) (q : Fin 7) :
    (iblk1 V c 1 t : S128x7.Idx → EReal) (ix2 k q) = (V c main_arg4 : S128x7.Idx → EReal) (ix2 k q) := by
  obtain ⟨-, -, e10, e11, -, -⟩ := index_facts t
  unfold iblk1
  rw [View.read_apply]
  show V c main_arg4 _ = V c main_arg4 _
  congr 1
  funext a
  apply Fin.ext
  match a with
  | ⟨0, _⟩ => show win1_1.index t (0 : Fin 2) * 128 + 1 * k.val = k.val; omega
  | ⟨1, _⟩ => show win1_1.index t (1 : Fin 2) * 7 + 1 * q.val = q.val; omega

/-- What point `t` writes back is its block of the product of the rectified features with the weights. -/
theorem flushed_eq (c : Dev nD) (t : Fin cfg1.N) :
    (dat1 V c).flushed 2 t = ((cfg1.win 2).blk t).view.read (Elt Ideal)
      (matProd (Cert.Gcn.rectify (V c main_v48) : S50000x128.Idx → EReal) (V c main_arg4 : S128x7.Idx → EReal)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S128x7) zero_offsets]
  rw [stored_eq]
  obtain ⟨-, -, -, -, e20, e21⟩ := index_facts t
  funext j
  show matProd (rectifyBlock (iblk1 V c 0 t : S2000x128.Idx → EReal)) (iblk1 V c 1 t : S128x7.Idx → EReal) j
    = matProd (Cert.Gcn.rectify (V c main_v48) : S50000x128.Idx → EReal) (V c main_arg4 : S128x7.Idx → EReal) (((cfg1.win 2).blk t).view.emb j)
  refine matProd_rows (M := 50000) (R := 2000) (K := 128) (N := 7) (Cert.Gcn.rectify (V c main_v48) : S50000x128.Idx → EReal)
    (rectifyBlock (iblk1 V c 0 t : S2000x128.Idx → EReal)) (V c main_arg4 : S128x7.Idx → EReal) (iblk1 V c 1 t : S128x7.Idx → EReal) t.val
    (fun p r k hr => ?_) (fun k q => right_whole V c t k q) j (((cfg1.win 2).blk t).view.emb j) ?_ ?_
  · exact congrArg (fun v : EReal => max v (Ideal.ofBits .f32 0x00000000#32)) (left_rows V c t p r k hr)
  · show win1_2.index t (0 : Fin 2) * 2000 + 1 * (j 0).val = t.val * 2000 + (j 0).val; omega
  · show win1_2.index t (1 : Fin 2) * 7 + 1 * (j 1).val = (j 1).val; omega

/-- An index of the output array is in point `t`'s block iff each coordinate is in the block's range on its axis. -/
theorem mem_blk (t : Fin cfg1.N) (i : S50000x7.Idx) :
    i ∈ ((cfg1.win 2).blk t).view.set ↔ ∀ a : Fin 2, win1_2.index t a * S2000x7.size a ≤ (i a).val ∧ (i a).val < win1_2.index t a * S2000x7.size a + S2000x7.size a := by
  show i ∈ ((View.whole main_v49).slice (win1_2.rect t)).set ↔ _
  rw [View.set_slice_whole, Rect.mem_set_unit]
  exact Iff.rfl

/-- Row `r` of the output array is written by point `r / 2000`. -/
theorem cover (i : S50000x7.Idx) : ∃ t : Fin cfg1.N, (cfg1.win 2).flush t = true ∧ i ∈ ((cfg1.win 2).blk t).view.set := by
  have hi0 : (i 0).val < 50000 := (i 0).isLt
  have hi1 : (i 1).val < 7 := (i 1).isLt
  have hN : cfg1.N = 25 := N_1
  have hlt : (i 0).val / 2000 < cfg1.N := by rw [hN]; omega
  obtain ⟨-, -, -, -, e20, e21⟩ := index_facts ⟨(i 0).val / 2000, hlt⟩
  refine ⟨⟨(i 0).val / 2000, hlt⟩, flush1_2 _, ?_⟩
  rw [mem_blk]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    rw [e20]; show (i 0).val / 2000 * 2000 ≤ (i 0).val ∧ (i 0).val < (i 0).val / 2000 * 2000 + 2000; omega
  | ⟨1, _⟩ =>
    show win1_2.index ⟨(i 0).val / 2000, hlt⟩ (1 : Fin 2) * 7 ≤ (i 1).val ∧ (i 1).val < win1_2.index ⟨(i 0).val / 2000, hlt⟩ (1 : Fin 2) * 7 + 7
    rw [e21]; omega

/-- The output array after the region: the rectified hidden features times the weights, as the region found them. -/
theorem value (c : Dev nD) :
    (dat1 V c).arrAt 2 cfg1.N = matProd (Cert.Gcn.rectify (V c main_v48) : S50000x128.Idx → EReal) (V c main_arg4 : S128x7.Idx → EReal) :=
  (dat1 V c).arrAt_eq_of_cover 2 (matProd (Cert.Gcn.rectify (V c main_v48) : S50000x128.Idx → EReal) (V c main_arg4 : S128x7.Idx → EReal))
    (fun t _ => flushed_eq V c t) (cover)

end Cert.KernelIdeal.Region1

end
-- ==== Proof.Network.lean ====
import proofs.«106938_j60370060312856_1_alg».proof.Proof.Layers
import proofs.«106938_j60370060312856_1_alg».proof.Proof.LibMatProd

/-!
# The two-layer network as one function of its arguments

`network x e w1 b1 w2 b2`: the node features `x : [50000, 1433]` are multiplied by `w1 : [1433, 128]`, aggregated over
the graph `e` with bias `b1`, rectified, multiplied by `w2 : [128, 7]`, and aggregated again with bias `b2` — every
product the plain sum over the shared coordinate (`MatProd.matProd`), over the extended reals.
-/

noncomputable section

namespace Cert.Gcn

open Idealize.ShloMosaic Idealize.ShloMosaic.MatProd Cert.KernelIdeal

/-- The hidden features: the first product aggregated over the graph. -/
def hidden (x : S50000x1433.Idx → EReal) (e : Edges) (w1 : S1433x128.Idx → EReal) (b1 : FVec Ideal S128 .f32) :
    FVec Ideal S50000x128 .f32 :=
  aggregateWide (matProd x w1) e b1

/-- The network's result. -/
def network (x : S50000x1433.Idx → EReal) (e : Edges) (w1 : S1433x128.Idx → EReal) (b1 : FVec Ideal S128 .f32)
    (w2 : S128x7.Idx → EReal) (b2 : FVec Ideal S7 .f32) : FVec Ideal S50000x7 .f32 :=
  aggregateNarrow (matProd (rectify (hidden x e w1 b1)) w2) e b2

end Cert.Gcn

end
-- ==== Proof.Boundaries.lean ====
import proofs.«106938_j60370060312856_1_alg».proof.Proof.Gen.KernelIdeal.Frame
import proofs.«106938_j60370060312856_1_alg».proof.Proof.Stretches
import proofs.«106938_j60370060312856_1_alg».proof.Proof.Region0
import proofs.«106938_j60370060312856_1_alg».proof.Proof.Region1
import proofs.«106938_j60370060312856_1_alg».proof.Proof.Network

/-!
# The kernel program's result is the network of its arguments

The buffers' contents at the eight boundaries of the program's seven stretches (`Gen.W0 … Gen.W7`), read forwards
from the launch memory `m`:

* after the edge list's stretch (`W1`): the pairs' ends, the degree's comparison and reciprocal root;
* after the selection (`W2`): the per-node factor `Gcn.dinv`; after the third stretch (`W3`): the pairs' weights `Gcn.norm`;
* after the first tiled product (`W4`): its output array holds `x · w1` (Region0), every other buffer as before;
* after the first aggregation (`W5`): the hidden features `Gcn.hidden`;
* after the second tiled product (`W6`): its output array holds `rectify hidden · w2` (Region1);
* after the second aggregation (`W7`): the result buffer holds `Gcn.network` of the six arguments (`result_eq`).

A buffer that a stretch does not write is carried over unchanged, which is how the pairs' ends and weights and the
argument arrays reach the later stretches.
-/

set_option maxRecDepth 16384

noncomputable section

namespace Cert.KernelIdeal.Boundaries

open Cert.KernelIdeal Cert.KernelIdeal.Gen Cert.Gcn
open Idealize.ShloMosaic Idealize.ShloMosaic.TcCoe Idealize.SL.Sem Idealize.ShloMosaic.StableHlo Idealize.ShloMosaic.MatProd

variable (m : (ℓ : Loc nD τ sig) → Buf (Elt Ideal) ℓ) (ρ : Dev nD → PrngReg)

/-! ## After the edge list's stretch -/

theorem w1_src (c : Dev nD) : W1 m ρ c (Proc.devRef .tc main_v3) = src (m ((c : Thread nD τ).loc main_arg1)) := Stretches.ends_src (W0 m ρ c)
theorem w1_dst (c : Dev nD) : W1 m ρ c (Proc.devRef .tc main_v6) = dst (m ((c : Thread nD τ).loc main_arg1)) := Stretches.ends_dst (W0 m ρ c)
theorem w1_positive (c : Dev nD) : W1 m ρ c (Proc.devRef .tc main_v12) = positive (deg (m ((c : Thread nD τ).loc main_arg1))) := Stretches.ends_positive (W0 m ρ c)
theorem w1_invSqrt (c : Dev nD) : W1 m ρ c (Proc.devRef .tc main_v15) = invSqrt (deg (m ((c : Thread nD τ).loc main_arg1))) := Stretches.ends_invSqrt (W0 m ρ c)
theorem w1_zero (c : Dev nD) : W1 m ρ c (Proc.devRef .tc main_cst_3) = constant (F := Ideal) S_ .f32 0x00000000#32 := Stretches.ends_zero (W0 m ρ c)
theorem w1_arg0 (c : Dev nD) : W1 m ρ c (Proc.devRef .tc main_arg0) = (m ((c : Thread nD τ).loc main_arg0)) := Stretches.ends_keeps_arg0 (W0 m ρ c)
theorem w1_arg2 (c : Dev nD) : W1 m ρ c (Proc.devRef .tc main_arg2) = (m ((c : Thread nD τ).loc main_arg2)) := Stretches.ends_keeps_arg2 (W0 m ρ c)
theorem w1_arg3 (c : Dev nD) : W1 m ρ c (Proc.devRef .tc main_arg3) = (m ((c : Thread nD τ).loc main_arg3)) := Stretches.ends_keeps_arg3 (W0 m ρ c)
theorem w1_arg4 (c : Dev nD) : W1 m ρ c (Proc.devRef .tc main_arg4) = (m ((c : Thread nD τ).loc main_arg4)) := Stretches.ends_keeps_arg4 (W0 m ρ c)
theorem w1_arg5 (c : Dev nD) : W1 m ρ c (Proc.devRef .tc main_arg5) = (m ((c : Thread nD τ).loc main_arg5)) := Stretches.ends_keeps_arg5 (W0 m ρ c)

/-! ## After the selection -/

theorem w2_dinv (c : Dev nD) : W2 m ρ c (Proc.devRef .tc main_v16) = dinv (m ((c : Thread nD τ).loc main_arg1)) := by
  refine (Stretches.select_dinv (W1 m ρ c)).trans ?_
  rw [w1_positive m ρ c, w1_invSqrt m ρ c, w1_zero m ρ c]
  rfl
theorem w2_src (c : Dev nD) : W2 m ρ c (Proc.devRef .tc main_v3) = src (m ((c : Thread nD τ).loc main_arg1)) := (Stretches.select_keeps_v3 (W1 m ρ c)).trans (w1_src m ρ c)
theorem w2_dst (c : Dev nD) : W2 m ρ c (Proc.devRef .tc main_v6) = dst (m ((c : Thread nD τ).loc main_arg1)) := (Stretches.select_keeps_v6 (W1 m ρ c)).trans (w1_dst m ρ c)
theorem w2_arg0 (c : Dev nD) : W2 m ρ c (Proc.devRef .tc main_arg0) = (m ((c : Thread nD τ).loc main_arg0)) := (Stretches.select_keeps_arg0 (W1 m ρ c)).trans (w1_arg0 m ρ c)
theorem w2_arg2 (c : Dev nD) : W2 m ρ c (Proc.devRef .tc main_arg2) = (m ((c : Thread nD τ).loc main_arg2)) := (Stretches.select_keeps_arg2 (W1 m ρ c)).trans (w1_arg2 m ρ c)
theorem w2_arg3 (c : Dev nD) : W2 m ρ c (Proc.devRef .tc main_arg3) = (m ((c : Thread nD τ).loc main_arg3)) := (Stretches.select_keeps_arg3 (W1 m ρ c)).trans (w1_arg3 m ρ c)
theorem w2_arg4 (c : Dev nD) : W2 m ρ c (Proc.devRef .tc main_arg4) = (m ((c : Thread nD τ).loc main_arg4)) := (Stretches.select_keeps_arg4 (W1 m ρ c)).trans (w1_arg4 m ρ c)
theorem w2_arg5 (c : Dev nD) : W2 m ρ c (Proc.devRef .tc main_arg5) = (m ((c : Thread nD τ).loc main_arg5)) := (Stretches.select_keeps_arg5 (W1 m ρ c)).trans (w1_arg5 m ρ c)

/-! ## At the first region's entry -/

theorem w3_norm (c : Dev nD) : W3 m ρ c (Proc.devRef .tc main_v31) = norm (m ((c : Thread nD τ).loc main_arg1)) := by
  refine (Stretches.weights_norm (W2 m ρ c)).trans ?_
  rw [w2_dinv m ρ c, w2_src m ρ c, w2_dst m ρ c]
  rfl
theorem w3_src (c : Dev nD) : W3 m ρ c (Proc.devRef .tc main_v3) = src (m ((c : Thread nD τ).loc main_arg1)) := (Stretches.weights_keeps_v3 (W2 m ρ c)).trans (w2_src m ρ c)
theorem w3_dst (c : Dev nD) : W3 m ρ c (Proc.devRef .tc main_v6) = dst (m ((c : Thread nD τ).loc main_arg1)) := (Stretches.weights_keeps_v6 (W2 m ρ c)).trans (w2_dst m ρ c)
theorem w3_arg0 (c : Dev nD) : W3 m ρ c (Proc.devRef .tc main_arg0) = (m ((c : Thread nD τ).loc main_arg0)) := (Stretches.weights_keeps_arg0 (W2 m ρ c)).trans (w2_arg0 m ρ c)
theorem w3_arg2 (c : Dev nD) : W3 m ρ c (Proc.devRef .tc main_arg2) = (m ((c : Thread nD τ).loc main_arg2)) := (Stretches.weights_keeps_arg2 (W2 m ρ c)).trans (w2_arg2 m ρ c)
theorem w3_arg3 (c : Dev nD) : W3 m ρ c (Proc.devRef .tc main_arg3) = (m ((c : Thread nD τ).loc main_arg3)) := (Stretches.weights_keeps_arg3 (W2 m ρ c)).trans (w2_arg3 m ρ c)
theorem w3_arg4 (c : Dev nD) : W3 m ρ c (Proc.devRef .tc main_arg4) = (m ((c : Thread nD τ).loc main_arg4)) := (Stretches.weights_keeps_arg4 (W2 m ρ c)).trans (w2_arg4 m ρ c)
theorem w3_arg5 (c : Dev nD) : W3 m ρ c (Proc.devRef .tc main_arg5) = (m ((c : Thread nD τ).loc main_arg5)) := (Stretches.weights_keeps_arg5 (W2 m ρ c)).trans (w2_arg5 m ρ c)

/-! ## After the first tiled product -/

/-- Its output array holds the product of the features with the first weights. -/
theorem w4_product (c : Dev nD) :
    W4 m ρ c (Proc.devRef .tc main_v32) = matProd ((m ((c : Thread nD τ).loc main_arg0)) : S50000x1433.Idx → EReal) ((m ((c : Thread nD τ).loc main_arg2)) : S1433x128.Idx → EReal) := by
  refine (W4_arr m ρ c 2).trans ((Region0.value (V3 m ρ) c).trans ?_)
  rw [show V3 m ρ c main_arg0 = (m ((c : Thread nD τ).loc main_arg0)) from w3_arg0 m ρ c, show V3 m ρ c main_arg2 = (m ((c : Thread nD τ).loc main_arg2)) from w3_arg2 m ρ c]
theorem w4_norm (c : Dev nD) : W4 m ρ c (Proc.devRef .tc main_v31) = norm (m ((c : Thread nD τ).loc main_arg1)) := (W4_of_ne m ρ c main_v31 (by decide)).trans (w3_norm m ρ c)
theorem w4_src (c : Dev nD) : W4 m ρ c (Proc.devRef .tc main_v3) = src (m ((c : Thread nD τ).loc main_arg1)) := (W4_of_ne m ρ c main_v3 (by decide)).trans (w3_src m ρ c)
theorem w4_dst (c : Dev nD) : W4 m ρ c (Proc.devRef .tc main_v6) = dst (m ((c : Thread nD τ).loc main_arg1)) := (W4_of_ne m ρ c main_v6 (by decide)).trans (w3_dst m ρ c)
theorem w4_arg3 (c : Dev nD) : W4 m ρ c (Proc.devRef .tc main_arg3) = (m ((c : Thread nD τ).loc main_arg3)) := (W4_of_ne m ρ c main_arg3 (by decide)).trans (w3_arg3 m ρ c)
theorem w4_arg4 (c : Dev nD) : W4 m ρ c (Proc.devRef .tc main_arg4) = (m ((c : Thread nD τ).loc main_arg4)) := (W4_of_ne m ρ c main_arg4 (by decide)).trans (w3_arg4 m ρ c)
theorem w4_arg5 (c : Dev nD) : W4 m ρ c (Proc.devRef .tc main_arg5) = (m ((c : Thread nD τ).loc main_arg5)) := (W4_of_ne m ρ c main_arg5 (by decide)).trans (w3_arg5 m ρ c)

/-! ## At the second region's entry -/

/-- The hidden features. -/
theorem w5_hidden (c : Dev nD) : W5 m ρ c (Proc.devRef .tc main_v48) = hidden (m ((c : Thread nD τ).loc main_arg0)) (m ((c : Thread nD τ).loc main_arg1)) (m ((c : Thread nD τ).loc main_arg2)) (m ((c : Thread nD τ).loc main_arg3)) := by
  refine (Stretches.wide_hidden (W4 m ρ c)).trans ?_
  rw [w4_product m ρ c, w4_norm m ρ c, w4_src m ρ c, w4_dst m ρ c, w4_arg3 m ρ c]
  rfl
theorem w5_norm (c : Dev nD) : W5 m ρ c (Proc.devRef .tc main_v31) = norm (m ((c : Thread nD τ).loc main_arg1)) := (Stretches.wide_keeps_v31 (W4 m ρ c)).trans (w4_norm m ρ c)
theorem w5_src (c : Dev nD) : W5 m ρ c (Proc.devRef .tc main_v3) = src (m ((c : Thread nD τ).loc main_arg1)) := (Stretches.wide_keeps_v3 (W4 m ρ c)).trans (w4_src m ρ c)
theorem w5_dst (c : Dev nD) : W5 m ρ c (Proc.devRef .tc main_v6) = dst (m ((c : Thread nD τ).loc main_arg1)) := (Stretches.wide_keeps_v6 (W4 m ρ c)).trans (w4_dst m ρ c)
theorem w5_arg4 (c : Dev nD) : W5 m ρ c (Proc.devRef .tc main_arg4) = (m ((c : Thread nD τ).loc main_arg4)) := (Stretches.wide_keeps_arg4 (W4 m ρ c)).trans (w4_arg4 m ρ c)
theorem w5_arg5 (c : Dev nD) : W5 m ρ c (Proc.devRef .tc main_arg5) = (m ((c : Thread nD τ).loc main_arg5)) := (Stretches.wide_keeps_arg5 (W4 m ρ c)).trans (w4_arg5 m ρ c)

/-! ## After the second tiled product -/

/-- Its output array holds the product of the rectified hidden features with the second weights. -/
theorem w6_product (c : Dev nD) :
    W6 m ρ c (Proc.devRef .tc main_v49) = matProd (rectify (hidden (m ((c : Thread nD τ).loc main_arg0)) (m ((c : Thread nD τ).loc main_arg1)) (m ((c : Thread nD τ).loc main_arg2)) (m ((c : Thread nD τ).loc main_arg3))) : S50000x128.Idx → EReal) ((m ((c : Thread nD τ).loc main_arg4)) : S128x7.Idx → EReal) := by
  refine (W6_arr m ρ c 2).trans ((Region1.value (V5 m ρ) c).trans ?_)
  rw [show V5 m ρ c main_v48 = hidden (m ((c : Thread nD τ).loc main_arg0)) (m ((c : Thread nD τ).loc main_arg1)) (m ((c : Thread nD τ).loc main_arg2)) (m ((c : Thread nD τ).loc main_arg3)) from w5_hidden m ρ c,
    show V5 m ρ c main_arg4 = (m ((c : Thread nD τ).loc main_arg4)) from w5_arg4 m ρ c]
theorem w6_norm (c : Dev nD) : W6 m ρ c (Proc.devRef .tc main_v31) = norm (m ((c : Thread nD τ).loc main_arg1)) := (W6_of_ne m ρ c main_v31 (by decide)).trans (w5_norm m ρ c)
theorem w6_src (c : Dev nD) : W6 m ρ c (Proc.devRef .tc main_v3) = src (m ((c : Thread nD τ).loc main_arg1)) := (W6_of_ne m ρ c main_v3 (by decide)).trans (w5_src m ρ c)
theorem w6_dst (c : Dev nD) : W6 m ρ c (Proc.devRef .tc main_v6) = dst (m ((c : Thread nD τ).loc main_arg1)) := (W6_of_ne m ρ c main_v6 (by decide)).trans (w5_dst m ρ c)
theorem w6_arg5 (c : Dev nD) : W6 m ρ c (Proc.devRef .tc main_arg5) = (m ((c : Thread nD τ).loc main_arg5)) := (W6_of_ne m ρ c main_arg5 (by decide)).trans (w5_arg5 m ρ c)

/-! ## At the return -/

/-- The result buffer holds the network of the six arguments. -/
theorem result_eq (c : Dev nD) :
    W7 m ρ c (Proc.devRef .tc main_v65) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Stretches.narrow_out (W6 m ρ c)).trans ?_
  rw [w6_product m ρ c, w6_norm m ρ c, w6_src m ρ c, w6_dst m ρ c, w6_arg5 m ρ c]
  rfl

end Cert.KernelIdeal.Boundaries

end
-- ==== Proof.RefValue.lean ====
import proofs.«106938_j60370060312856_1_alg».proof.Proof.RefRunPatched
import proofs.«106938_j60370060312856_1_alg».proof.Proof.Network

/-!
# The reference program's result is the network of its arguments

The reference is one line of host operations: the same operations on the edge list as the kernel program's, a whole
`dot_general` of the features with the first weights, the same aggregation, the rectifier as a maximum with a
broadcast zero, a whole `dot_general` with the second weights, and the same aggregation again. Over the extended reals a
whole `dot_general` of two matrices is the plain product `MatProd.matProd`; with that, the composed term its run ends at
is `Gcn.network` of the six arguments, operation by operation.
-/

set_option maxRecDepth 16384

noncomputable section

namespace Cert.ReferenceIdeal.Bridge

open Idealize.ShloMosaic Idealize.ShloMosaic.TcCoe Idealize.SL.Sem Idealize.ShloMosaic.MatProd

variable (m : (ℓ : Loc Cert.ReferenceIdeal.nD Cert.ReferenceIdeal.τ Cert.ReferenceIdeal.sig) → Buf (Elt Ideal) ℓ)

/-- The first whole product is the plain product. -/
theorem first_product (x : FVec Ideal Cert.ReferenceIdeal.S50000x1433 .f32) (w : FVec Ideal Cert.ReferenceIdeal.S1433x128 .f32) :
    Host.dotGeneral (F := Ideal) Cert.ReferenceIdeal.dot_S50000x1433_S1433x128_S50000x128_1_0_0_1_n_n none x w = matProd x w :=
  dotGeneral_eq_matProd _ rfl rfl rfl rfl rfl rfl none .single x w

/-- The second whole product is the plain product. -/
theorem second_product (x : FVec Ideal Cert.ReferenceIdeal.S50000x128 .f32) (w : FVec Ideal Cert.ReferenceIdeal.S128x7 .f32) :
    Host.dotGeneral (F := Ideal) Cert.ReferenceIdeal.dot_S50000x128_S128x7_S50000x7_1_0_0_1_n_n none x w = matProd x w :=
  dotGeneral_eq_matProd _ rfl rfl rfl rfl rfl rfl none .single x w

/-- The term the reference's run ends at is the network of its arguments. -/
theorem value_eq (c : Dev Cert.ReferenceIdeal.nD) :
    Cert.ReferenceIdeal.ValueP.res_main_v66 (F := Ideal) m c
      = Cert.Gcn.network (m ((c : Thread Cert.ReferenceIdeal.nD Cert.ReferenceIdeal.τ).loc Cert.ReferenceIdeal.main_arg0)) (m ((c : Thread Cert.ReferenceIdeal.nD Cert.ReferenceIdeal.τ).loc Cert.ReferenceIdeal.main_arg1)) (m ((c : Thread Cert.ReferenceIdeal.nD Cert.ReferenceIdeal.τ).loc Cert.ReferenceIdeal.main_arg2)) (m ((c : Thread Cert.ReferenceIdeal.nD Cert.ReferenceIdeal.τ).loc Cert.ReferenceIdeal.main_arg3)) (m ((c : Thread Cert.ReferenceIdeal.nD Cert.ReferenceIdeal.τ).loc Cert.ReferenceIdeal.main_arg4)) (m ((c : Thread Cert.ReferenceIdeal.nD Cert.ReferenceIdeal.τ).loc Cert.ReferenceIdeal.main_arg5)) := by
  unfold Cert.ReferenceIdeal.ValueP.res_main_v66
  rw [first_product, second_product]
  rfl

end Cert.ReferenceIdeal.Bridge

end
-- ==== Proof.lean ====
/- The proof of `Cert.Claim`: the three frames, the (empty) idealization ledger, and the equality of the two idealized
   programs' results over the extended reals.

   Both programs compute a two-layer graph convolution of node features `x` over an edge list `e`:
   `network x e w1 b1 w2 b2 = aggregate (rectify (aggregate (x · w1) e b1) · w2) e b2` (Proof/Network.lean), where a layer's
   aggregation weighs every (source, target) pair by `deg^(-1/2)` at both ends, adds up at each node what arrives there,
   and adds the bias (Proof/Layers.lean). The kernel program computes each of the two products `·` in 25 blocks of 2000
   rows on the matrix unit, the second with the rectifier fused into the block's load; the reference computes each as one
   whole product. Over the extended reals a product in row blocks is the product (Proof/Region0.lean, Proof/Region1.lean),
   a change of float format is the identity, and everything else is the same operations in the same order
   (Proof/Stretches.lean, Proof/Boundaries.lean for the kernel program; Proof/RefValue.lean for the reference). No law of
   arithmetic beyond reading a sum block by block is used, so the precondition is never opened. -/
import proofs.«106938_j60370060312856_1_alg».proof.Defs
import proofs.«106938_j60370060312856_1_alg».proof.Proof.Gen.Kernel
import proofs.«106938_j60370060312856_1_alg».proof.Proof.Gen.Kernel.Skeleton
import proofs.«106938_j60370060312856_1_alg».proof.Proof.Gen.Kernel.Launch
import proofs.«106938_j60370060312856_1_alg».proof.Proof.Gen.Kernel.Points
import proofs.«106938_j60370060312856_1_alg».proof.Proof.Gen.Kernel.Frame
import proofs.«106938_j60370060312856_1_alg».proof.Proof.Gen.KernelIdeal
import proofs.«106938_j60370060312856_1_alg».proof.Proof.Gen.KernelIdeal.Skeleton
import proofs.«106938_j60370060312856_1_alg».proof.Proof.Gen.KernelIdeal.Launch
import proofs.«106938_j60370060312856_1_alg».proof.Proof.Gen.KernelIdeal.Points
import proofs.«106938_j60370060312856_1_alg».proof.Proof.Gen.KernelIdeal.Frame
import proofs.«106938_j60370060312856_1_alg».proof.Proof.Gen.ReferenceIdeal
import proofs.«106938_j60370060312856_1_alg».proof.Proof.Gen.Pre_finite_inputs
import proofs.«106938_j60370060312856_1_alg».proof.Proof.KernelRun
import proofs.«106938_j60370060312856_1_alg».proof.Proof.Boundaries
import proofs.«106938_j60370060312856_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both idealized programs end with the network of the arguments in their result buffers. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Boundaries.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.ReferenceIdeal.Bridge.value_eq m' c, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
